-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S1000000x64 : Shape := ⟨2, ![1000000, 64]⟩
abbrev S2000000x64 : Shape := ⟨2, ![2000000, 64]⟩
abbrev S32x64 : Shape := ⟨2, ![32, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S2000000x64 : S_.BroadcastsInDim S2000000x64 (![] : Fin 0 → Fin S2000000x64.rank)
  reducesTo_S2000000x64_S_d0_1 : S2000000x64.ReducesTo [0, 1] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  main_v18

def fn {F : FTy → Type} [FloatOps F] (main_arg0 : IVec S524288 32) (main_arg1 : IVec S524288 32) (main_arg2 : FVec F S1000000x64 .f32) (main_arg3 : FVec F S2000000x64 .f32) (main_arg4 : FVec F S32x64 .f32) (main_arg5 : FVec F S32x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S2000000x64 .f32 := Host.absf main_arg3
  let main_cst_0 : FVec F S_ .f32 := constant S_ .f32 0x7F800000#32
  let main_v5 : FVec F S2000000x64 .f32 := broadcastInDim S2000000x64 ![] bcast_S_S2000000x64 main_cst_0
  let main_v6 : IVec S2000000x64 1 := cmpf .olt main_v4 main_v5
  let main_c_1 : IVec S_ 1 := constantI S_ 1 1#1
  let main_v7 : IVec S_ 1 := (fun x v => Host.reduce IntOp.andi x v reducesTo_S2000000x64_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_v13 main_v16
-- ==== Kernel.lean ====
abbrev S524288 : Shape := ⟨1, ![524288]⟩
abbrev S1000000x64 : Shape := ⟨2, ![1000000, 64]⟩
abbrev S2000000x64 : Shape := ⟨2, ![2000000, 64]⟩
abbrev S32x64 : Shape := ⟨2, ![32, 64]⟩
abbrev S_ : Shape := ⟨0, ![]⟩
abbrev S524288x1 : Shape := ⟨2, ![524288, 1]⟩
abbrev S524288x64 : Shape := ⟨2, ![524288, 64]⟩
abbrev S8192x64 : Shape := ⟨2, ![8192, 64]⟩
abbrev S8192 : Shape := ⟨1, ![8192]⟩
abbrev S64x32 : Shape := ⟨2, ![64, 32]⟩
abbrev S8192x32 : Shape := ⟨2, ![8192, 32]⟩
abbrev S8192x1 : Shape := ⟨2, ![8192, 1]⟩

abbrev nBuf : Space → Nat
  | .hbm => 25
  | .vmem => 8
  | .smem => 0
  | _ => 0

abbrev bufTy : (tb : Table) → Fin (tcTables nBuf tb) → BufTy
  | .hbm, ⟨0, _⟩ => ⟨S524288, .i32⟩
  | .hbm, ⟨1, _⟩ => ⟨S524288, .i32⟩
  | .hbm, ⟨2, _⟩ => ⟨S1000000x64, .f32⟩
  | .hbm, ⟨3, _⟩ => ⟨S2000000x64, .f32⟩
  | .hbm, ⟨4, _⟩ => ⟨S32x64, .f32⟩
  | .hbm, ⟨5, _⟩ => ⟨S32x64, .f32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S524288x1, .i32⟩
  | .hbm, ⟨14, _⟩ => ⟨S524288x64, .f32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S524288x1, .i32⟩
  | .hbm, ⟨23, _⟩ => ⟨S524288x64, .f32⟩
  | .hbm, ⟨24, _⟩ => ⟨S524288, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S32x64, .f32⟩
  | .local _ .vmem, ⟨5, _⟩ => ⟨S32x64, .f32⟩
  | .local _ .vmem, ⟨6, _⟩ => ⟨S8192, .f32⟩
  | .local _ .vmem, ⟨7, _⟩ => ⟨S8192, .f32⟩
  | _, _ => ⟨S524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  transposes_S32x64_p1_0_S64x32 : S32x64.Transposes [1, 0] S64x32
  reduces_S8192x64_S8192 : S8192x64.Reduces [1] S8192
  shapeCasts_S8192_S8192x1 : S8192.ShapeCasts S8192x1
  broadcasts_S8192x1_S8192x64 : S8192x1.Broadcasts S8192x64
  inb_S8192_S8192_0 : ∀ a, (![0] : Fin 1 → Nat) a + S8192.size a ≤ S8192.size a
  h_S8192 : 0 < S8192.numel
  gather_S1000000x64_S524288x1_S524288x64_1_0_n_n_0_1_164_wf : GatherDims.WF S1000000x64 S524288x1 S524288x64 [1] [0] [] [0] [] 1 ![1, 64]
  gather_S2000000x64_S524288x1_S524288x64_1_0_n_n_0_1_164_wf : GatherDims.WF S2000000x64 S524288x1 S524288x64 [1] [0] [] [0] [] 1 ![1, 64]
  dot_S8192x64_S64x32_S8192x32_1_0_0_1_n_n_wf : DotDims.WF S8192x64 S64x32 S8192x32 [1] [0] [0] [1] [] []
  dot_S8192x32_S32x64_S8192x64_1_0_0_1_n_n_wf : DotDims.WF S8192x32 S32x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S524288x64.size a
  hwx0_0 : ∀ i : grid0.Coords, EltTy.bits .f32 = 32 ∨ (Rect.block (s := S524288x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S524288x64.size a
  hwx0_1 : ∀ i : grid0.Coords, EltTy.bits .f32 = 32 ∨ (Rect.block (s := S524288x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S524288.size a
  hwx0_4 : ∀ i : grid0.Coords, EltTy.bits .f32 = 32 ∨ (Rect.block (s := S524288) S8192.size (cc0_transform_4 i) (hinb0_4 i)).WholeWords (EltTy.packing .f32)

variable [Facts₀]

def gather_S1000000x64_S524288x1_S524288x64_1_0_n_n_0_1_164 : GatherDims S1000000x64 S524288x1 S524288x64 where
  offsetDims := [1]
  collapsedSliceDims := [0]
  operandBatchingDims := []
  startIndicesBatchingDims := []
  startIndexMap := [0]
  indexVectorDim := 1
  sliceSizes := ![1, 64]
  wf := gather_S1000000x64_S524288x1_S524288x64_1_0_n_n_0_1_164_wf
def gather_S2000000x64_S524288x1_S524288x64_1_0_n_n_0_1_164 : GatherDims S2000000x64 S524288x1 S524288x64 where
  offsetDims := [1]
  collapsedSliceDims := [0]
  operandBatchingDims := []
  startIndicesBatchingDims := []
  startIndexMap := [0]
  indexVectorDim := 1
  sliceSizes := ![1, 64]
  wf := gather_S2000000x64_S524288x1_S524288x64_1_0_n_n_0_1_164_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf

abbrev win0_0 : Pipeline.Window sig grid0 :=
  Pipeline.Window.ofSpec (Memref.whole main_v6) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288 : Shape := ⟨1, ![524288]⟩
abbrev S1000000x64 : Shape := ⟨2, ![1000000, 64]⟩
abbrev S2000000x64 : Shape := ⟨2, ![2000000, 64]⟩
abbrev S32x64 : Shape := ⟨2, ![32, 64]⟩
abbrev S_ : Shape := ⟨0, ![]⟩
abbrev S524288x1 : Shape := ⟨2, ![524288, 1]⟩
abbrev S524288x64 : Shape := ⟨2, ![524288, 64]⟩
abbrev S524288x32 : Shape := ⟨2, ![524288, 32]⟩

abbrev nBuf : Space → Nat
  | .hbm => 50
  | .vmem => 0
  | .smem => 0
  | _ => 0

abbrev bufTy : (tb : Table) → Fin (tcTables nBuf tb) → BufTy
  | .hbm, ⟨0, _⟩ => ⟨S524288, .i32⟩
  | .hbm, ⟨1, _⟩ => ⟨S524288, .i32⟩
  | .hbm, ⟨2, _⟩ => ⟨S1000000x64, .f32⟩
  | .hbm, ⟨3, _⟩ => ⟨S2000000x64, .f32⟩
  | .hbm, ⟨4, _⟩ => ⟨S32x64, .f32⟩
  | .hbm, ⟨5, _⟩ => ⟨S32x64, .f32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S524288x1, .i32⟩
  | .hbm, ⟨14, _⟩ => ⟨S524288x64, .f32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S524288x1, .i32⟩
  | .hbm, ⟨23, _⟩ => ⟨S524288x64, .f32⟩
  | .hbm, ⟨24, _⟩ => ⟨S524288x64, .f32⟩
  | .hbm, ⟨25, _⟩ => ⟨S524288x32, .f32⟩
  | .hbm, ⟨26, _⟩ => ⟨S_, .f32⟩
  | .hbm, ⟨27, _⟩ => ⟨S524288x32, .f32⟩
  | .hbm, ⟨28, _⟩ => ⟨S524288x32, .f32⟩
  | .hbm, ⟨29, _⟩ => ⟨S524288x64, .f32⟩
  | .hbm, ⟨30, _⟩ => ⟨S524288x64, .f32⟩
  | .hbm, ⟨31, _⟩ => ⟨S524288x64, .f32⟩
  | .hbm, ⟨32, _⟩ => ⟨S_, .f32⟩
  | .hbm, ⟨33, _⟩ => ⟨S524288, .f32⟩
  | .hbm, ⟨34, _⟩ => ⟨S524288x1, .f32⟩
  | .hbm, ⟨35, _⟩ => ⟨S524288x64, .f32⟩
  | .hbm, ⟨36, _⟩ => ⟨S524288x64, .f32⟩
  | .hbm, ⟨37, _⟩ => ⟨S524288x64, .f32⟩
  | .hbm, ⟨38, _⟩ => ⟨S524288x64, .f32⟩
  | .hbm, ⟨39, _⟩ => ⟨S_, .f32⟩
  | .hbm, ⟨40, _⟩ => ⟨S524288, .f32⟩
  | .hbm, ⟨41, _⟩ => ⟨S524288x1, .f32⟩
  | .hbm, ⟨42, _⟩ => ⟨S524288x64, .f32⟩
  | .hbm, ⟨43, _⟩ => ⟨S524288x64, .f32⟩
  | .hbm, ⟨44, _⟩ => ⟨S524288x64, .f32⟩
  | .hbm, ⟨45, _⟩ => ⟨S524288x64, .f32⟩
  | .hbm, ⟨46, _⟩ => ⟨S524288x64, .f32⟩
  | .hbm, ⟨47, _⟩ => ⟨S524288x64, .f32⟩
  | .hbm, ⟨48, _⟩ => ⟨S_, .f32⟩
  | .hbm, ⟨49, _⟩ => ⟨S524288, .f32⟩
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S524288x32 : S_.BroadcastsInDim S524288x32 (![] : Fin 0 → Fin S524288x32.rank)
  reducesTo_S524288x64_S524288_d1 : S524288x64.ReducesTo [1] S524288
  h_S_ : 0 < S_.numel
  bcast_S524288x1_S524288x64_0_1 : S524288x1.BroadcastsInDim S524288x64 (![0, 1] : Fin 2 → Fin S524288x64.rank)
  gather_S1000000x64_S524288x1_S524288x64_1_0_n_n_0_1_164_wf : GatherDims.WF S1000000x64 S524288x1 S524288x64 [1] [0] [] [0] [] 1 ![1, 64]
  gather_S2000000x64_S524288x1_S524288x64_1_0_n_n_0_1_164_wf : GatherDims.WF S2000000x64 S524288x1 S524288x64 [1] [0] [] [0] [] 1 ![1, 64]
  dot_S524288x64_S32x64_S524288x32_1_1_0_0_n_n_wf : DotDims.WF S524288x64 S32x64 S524288x32 [1] [1] [0] [0] [] []
  dot_S524288x32_S32x64_S524288x64_1_0_0_1_n_n_wf : DotDims.WF S524288x32 S32x64 S524288x64 [1] [0] [0] [1] [] []

variable [Facts₀]

def gather_S1000000x64_S524288x1_S524288x64_1_0_n_n_0_1_164 : GatherDims S1000000x64 S524288x1 S524288x64 where
  offsetDims := [1]
  collapsedSliceDims := [0]
  operandBatchingDims := []
  startIndicesBatchingDims := []
  startIndexMap := [0]
  indexVectorDim := 1
  sliceSizes := ![1, 64]
  wf := gather_S1000000x64_S524288x1_S524288x64_1_0_n_n_0_1_164_wf
def gather_S2000000x64_S524288x1_S524288x64_1_0_n_n_0_1_164 : GatherDims S2000000x64 S524288x1 S524288x64 where
  offsetDims := [1]
  collapsedSliceDims := [0]
  operandBatchingDims := []
  startIndicesBatchingDims := []
  startIndexMap := [0]
  indexVectorDim := 1
  sliceSizes := ![1, 64]
  wf := gather_S2000000x64_S524288x1_S524288x64_1_0_n_n_0_1_164_wf
def dot_S524288x64_S32x64_S524288x32_1_1_0_0_n_n : DotDims S524288x64 S32x64 S524288x32 where
  lhsContracting := [1]
  rhsContracting := [1]
  lhsNonContracting := [0]
  rhsNonContracting := [0]
  lhsBatch := []
  rhsBatch := []
  wf := dot_S524288x64_S32x64_S524288x32_1_1_0_0_n_n_wf
def dot_S524288x32_S32x64_S524288x64_1_0_0_1_n_n : DotDims S524288x32 S32x64 S524288x64 where
  lhsContracting := [1]
  rhsContracting := [0]
  lhsNonContracting := [0]
  rhsNonContracting := [1]
  lhsBatch := []
  rhsBatch := []
  wf := dot_S524288x32_S32x64_S524288x64_1_0_0_1_n_n_wf

class Facts : Prop extends Facts₀ where

variable [Facts]
-- ==== Proof.RowLaw.lean ====
/-
  The distance of one row, as mathematics.

  A row carries two embeddings `u v : D → ·` (the user's and the item's), and the two tables `P N : E → D → ·` (the
  preference vectors and the hyperplane normals, one per expert `p : E`) and a scale `h` are shared by all rows.
  The routing weights are the contraction of `u + v` with `P`, scaled by `h`; the translation `r` and the normal
  `n` of the row are the weights mixed with `P` and with `N`. The score is the L1 norm of
  `proj u + r - proj v`, where `proj x = x - (x · n) n`.

  Two arrangements of this computation are compared. One scales `u + v` BEFORE the contraction and projects the
  difference `u - v` once (`weightsIn`, `distDiff`); the other scales AFTER the contraction and projects `u` and
  `v` separately (`weightsOut`, `distSep`). Over the reals they agree: a constant factor moves across a finite
  sum, and `(u - v) · n = u · n - v · n`. Both steps are distributivity, which fails at the infinities of the
  extended reals, so the agreement is stated for the extended reals only at REAL entries (`arrangements_agree`):
  there every operation is the image of the real one, and the real identity transports.
-/
import Idealize.ShloMosaic.PureOps.Ideal

noncomputable section

open scoped BigOperators

namespace Cert.RouteDist

variable {D E : Type} [Fintype D] [Fintype E]

/-! ## Over the reals -/

namespace R

/-- Routing weights, the scale applied to each summand before the contraction over `d`. -/
def weightsIn (h : ℝ) (u v : D → ℝ) (P : E → D → ℝ) (p : E) : ℝ := ∑ d, ((u d + v d) * h) * P p d
/-- Routing weights, the scale applied to the contraction's result. -/
def weightsOut (h : ℝ) (u v : D → ℝ) (P : E → D → ℝ) (p : E) : ℝ := (∑ d, (u d + v d) * P p d) * h
/-- The weights mixed with a table: `Σ_p w p · T p d`. -/
def mix (w : E → ℝ) (T : E → D → ℝ) (d : D) : ℝ := ∑ p, w p * T p d
/-- L1 norm of `(u - v) - ((u - v) · n) n + r`; the absolute value written `max x (-x)`. -/
def distDiff (u v n r : D → ℝ) : ℝ :=
  ∑ d, max ((u d - v d - (∑ e, (u e - v e) * n e) * n d) + r d) (-((u d - v d - (∑ e, (u e - v e) * n e) * n d) + r d))
/-- L1 norm of `(u - (u · n) n + r) - (v - (v · n) n)`. -/
def distSep (u v n r : D → ℝ) : ℝ :=
  ∑ d, max (((u d - (∑ e, u e * n e) * n d) + r d) - (v d - (∑ e, v e * n e) * n d))
    (-(((u d - (∑ e, u e * n e) * n d) + r d) - (v d - (∑ e, v e * n e) * n d)))

/-- A constant factor moves out of the contraction. -/
theorem weightsIn_eq_weightsOut (h : ℝ) (u v : D → ℝ) (P : E → D → ℝ) : weightsIn h u v P = weightsOut h u v P := by
  funext p
  unfold weightsIn weightsOut
  rw [Finset.sum_mul]
  exact Finset.sum_congr rfl fun d _ => by ring

/-- The projection is linear: projecting the difference is the difference of the projections. -/
theorem distDiff_eq_distSep (u v n r : D → ℝ) : distDiff u v n r = distSep u v n r := by
  unfold distDiff distSep
  have hs : ∑ e, (u e - v e) * n e = ∑ e, u e * n e - ∑ e, v e * n e := by
    rw [← Finset.sum_sub_distrib]
    exact Finset.sum_congr rfl fun e _ => by ring
  rw [hs]
  refine Finset.sum_congr rfl fun d _ => ?_
  have hd : u d - v d - (∑ e, u e * n e - ∑ e, v e * n e) * n d + r d
      = u d - (∑ e, u e * n e) * n d + r d - (v d - (∑ e, v e * n e) * n d) := by ring
  rw [hd]

end R

/-! ## Over the extended reals -/

namespace X

/-- The same five functions with the extended reals' operations. -/
def weightsIn (h : EReal) (u v : D → EReal) (P : E → D → EReal) (p : E) : EReal := ∑ d, ((u d + v d) * h) * P p d
def weightsOut (h : EReal) (u v : D → EReal) (P : E → D → EReal) (p : E) : EReal := (∑ d, (u d + v d) * P p d) * h
def mix (w : E → EReal) (T : E → D → EReal) (d : D) : EReal := ∑ p, w p * T p d
def distDiff (u v n r : D → EReal) : EReal :=
  ∑ d, max ((u d - v d - (∑ e, (u e - v e) * n e) * n d) + r d) (-((u d - v d - (∑ e, (u e - v e) * n e) * n d) + r d))
def distSep (u v n r : D → EReal) : EReal :=
  ∑ d, max (((u d - (∑ e, u e * n e) * n d) + r d) - (v d - (∑ e, v e * n e) * n d))
    (-(((u d - (∑ e, u e * n e) * n d) + r d) - (v d - (∑ e, v e * n e) * n d)))

end X

/-! ## Real entries: the extended operations are the images of the real ones -/

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals commutes with `max`: it is monotone. -/
theorem coe_max (a b : ℝ) : ((max a b : ℝ) : EReal) = max (a : EReal) (b : EReal) :=
  EReal.coe_strictMono.monotone.map_max

theorem weightsIn_coe (h : ℝ) (u v : D → ℝ) (P : E → D → ℝ) :
    X.weightsIn (h : EReal) (fun d => (u d : EReal)) (fun d => (v d : EReal)) (fun p d => (P p d : EReal))
      = fun p => ((R.weightsIn h u v P p : ℝ) : EReal) := by
  funext p
  simp only [X.weightsIn, R.weightsIn, coe_sum, EReal.coe_mul, EReal.coe_add]

theorem weightsOut_coe (h : ℝ) (u v : D → ℝ) (P : E → D → ℝ) :
    X.weightsOut (h : EReal) (fun d => (u d : EReal)) (fun d => (v d : EReal)) (fun p d => (P p d : EReal))
      = fun p => ((R.weightsOut h u v P p : ℝ) : EReal) := by
  funext p
  simp only [X.weightsOut, R.weightsOut, coe_sum, EReal.coe_mul, EReal.coe_add]

theorem mix_coe (w : E → ℝ) (T : E → D → ℝ) :
    X.mix (fun p => (w p : EReal)) (fun p d => (T p d : EReal)) = fun d => ((R.mix w T d : ℝ) : EReal) := by
  funext d
  simp only [X.mix, R.mix, coe_sum, EReal.coe_mul]

theorem distDiff_coe (u v n r : D → ℝ) :
    X.distDiff (fun d => (u d : EReal)) (fun d => (v d : EReal)) (fun d => (n d : EReal)) (fun d => (r d : EReal))
      = ((R.distDiff u v n r : ℝ) : EReal) := by
  simp only [X.distDiff, R.distDiff, coe_sum, coe_max, EReal.coe_mul, EReal.coe_add, EReal.coe_sub, EReal.coe_neg]

theorem distSep_coe (u v n r : D → ℝ) :
    X.distSep (fun d => (u d : EReal)) (fun d => (v d : EReal)) (fun d => (n d : EReal)) (fun d => (r d : EReal))
      = ((R.distSep u v n r : ℝ) : EReal) := by
  simp only [X.distSep, R.distSep, coe_sum, coe_max, EReal.coe_mul, EReal.coe_add, EReal.coe_sub, EReal.coe_neg]

/-- THE LAW. At real entries the two arrangements of a row's score are one extended real. -/
theorem arrangements_agree (h : EReal) (u v : D → EReal) (P N : E → D → EReal)
    (hh : ∃ x : ℝ, h = x) (hu : ∀ d, ∃ x : ℝ, u d = x) (hv : ∀ d, ∃ x : ℝ, v d = x)
    (hP : ∀ p d, ∃ x : ℝ, P p d = x) (hN : ∀ p d, ∃ x : ℝ, N p d = x) :
    X.distDiff u v (X.mix (X.weightsIn h u v P) N) (X.mix (X.weightsIn h u v P) P)
      = X.distSep u v (X.mix (X.weightsOut h u v P) N) (X.mix (X.weightsOut h u v P) P) := by
  obtain ⟨h', rfl⟩ := hh
  choose u' hu' using hu
  choose v' hv' using hv
  choose P' hP' using hP
  choose N' hN' using hN
  obtain rfl : u = fun d => (u' d : EReal) := funext hu'
  obtain rfl : v = fun d => (v' d : EReal) := funext hv'
  obtain rfl : P = fun p d => (P' p d : EReal) := funext fun p => funext fun d => hP' p d
  obtain rfl : N = fun p d => (N' p d : EReal) := funext fun p => funext fun d => hN' p d
  rw [weightsIn_coe, weightsOut_coe, mix_coe, mix_coe, mix_coe, mix_coe, distDiff_coe, distSep_coe,
    R.weightsIn_eq_weightsOut, R.distDiff_eq_distSep]

end Cert.RouteDist

end
-- ==== Proof.Spec.lean ====
/-
  The score array, as two functions of the gathered embeddings and the two tables.

  `ue ie : [524288, 64]` hold, row by row, the user's and the item's embedding; `pw nw : [32, 64]` the preference vectors
  and the hyperplane normals. Entry `b` of the score array depends on row `b` of `ue` and `ie` and on the whole
  tables: it is RowLaw's row score, in the arrangement that scales before contracting and projects the difference
  (`scoreDiff`) or in the one that scales after and projects separately (`scoreSep`). The scale is the literal `0.5`,
  which denotes the real `1/2`; so where all entries are real the two arrays are equal (`scoreDiff_eq_scoreSep`).
-/
import proofs.«102745_j75720273429289_2_alg».proof.Proof.RowLaw
import Idealize.ShloMosaic.Lib.ValueIdx

noncomputable section

open scoped BigOperators

namespace Cert.RouteDist

open Idealize.ShloMosaic Idealize.ShloMosaic.ValueIdx

/-- The scale: the f32 pattern of `0.5`. -/
abbrev half : EReal := Ideal.ofBits .f32 0x3F000000#32

/-- The pattern of `0.5` denotes the real `1/2`. -/
theorem half_eq : half = ((1 / 2 : ℝ) : EReal) := by
  unfold half
  simp [Ideal.ofBits, Ideal.ieee, -EReal.coe_mul]; norm_num

/-- The pattern `0x7F800000` denotes `+∞`. -/
theorem ofBits_inf : Ideal.ofBits .f32 0x7F800000#32 = ⊤ := by
  simp [Ideal.ofBits, Ideal.ieee]

/-- Row `b` of a `[524288, 64]` array. -/
def row (x : (⟨2, ![524288, 64]⟩ : Shape).Idx → EReal) (b : Fin 524288) : Fin 64 → EReal := fun d => x (ix2 b d)
/-- A `[32, 64]` table by its two coordinates. -/
def tab (T : (⟨2, ![32, 64]⟩ : Shape).Idx → EReal) : Fin 32 → Fin 64 → EReal := fun p d => T (ix2 p d)

/-- The score array, scaling before the contraction and projecting the difference of the two embeddings. -/
def scoreDiff (ue ie : (⟨2, ![524288, 64]⟩ : Shape).Idx → EReal) (pw nw : (⟨2, ![32, 64]⟩ : Shape).Idx → EReal) :
    (⟨1, ![524288]⟩ : Shape).Idx → EReal := fun i =>
  X.distDiff (row ue (i 0)) (row ie (i 0))
    (X.mix (X.weightsIn half (row ue (i 0)) (row ie (i 0)) (tab pw)) (tab nw))
    (X.mix (X.weightsIn half (row ue (i 0)) (row ie (i 0)) (tab pw)) (tab pw))

/-- The score array, scaling after the contraction and projecting the two embeddings separately. -/
def scoreSep (ue ie : (⟨2, ![524288, 64]⟩ : Shape).Idx → EReal) (pw nw : (⟨2, ![32, 64]⟩ : Shape).Idx → EReal) :
    (⟨1, ![524288]⟩ : Shape).Idx → EReal := fun i =>
  X.distSep (row ue (i 0)) (row ie (i 0))
    (X.mix (X.weightsOut half (row ue (i 0)) (row ie (i 0)) (tab pw)) (tab nw))
    (X.mix (X.weightsOut half (row ue (i 0)) (row ie (i 0)) (tab pw)) (tab pw))

/-- Where every entry of the four arrays is real, the two score arrays are equal: RowLaw's law, row by row. -/
theorem scoreDiff_eq_scoreSep (ue ie : (⟨2, ![524288, 64]⟩ : Shape).Idx → EReal) (pw nw : (⟨2, ![32, 64]⟩ : Shape).Idx → EReal)
    (hu : ∀ j, ∃ x : ℝ, ue j = x) (hi : ∀ j, ∃ x : ℝ, ie j = x) (hp : ∀ j, ∃ x : ℝ, pw j = x) (hn : ∀ j, ∃ x : ℝ, nw j = x) :
    scoreDiff ue ie pw nw = scoreSep ue ie pw nw := by
  funext i
  exact arrangements_agree half (row ue (i 0)) (row ie (i 0)) (tab pw) (tab nw) ⟨_, half_eq⟩
    (fun d => hu _) (fun d => hi _) (fun p d => hp _) (fun p d => hn _)

end Cert.RouteDist

end
-- ==== Proof.KernelOps.lean ====
/-
  The kernel body computes one block of `scoreDiff`.

  The body works on a block of 8192 rows: `x0 x1 : [8192, 64]` are the block's rows of the two gathered arrays and
  `x2 x3 : [32, 64]` the two tables, whole. Read at row `r` of the block, what it stores is the row score in the
  arrangement that scales before contracting and projects the difference: the routing weights at `(r, p)` are the
  contraction over `d` of `(x0 + x1) · 0.5` with the TRANSPOSED preference table at `(d, p)`, that is with row `p` of
  the table; the translation and the normal at `(r, d)` contract the weights over the 32 experts with column `d` of
  the tables; the inner product `(x0 - x1) · n` of row `r` is a sum along the row, kept as a column and spread back
  over the row's 64 lanes; the score is the sum along the row of the absolute values. Changes of float format are the
  identity on the extended reals, and the matrix products start from a zero accumulator, so they are plain sums.
-/
import proofs.«102745_j75720273429289_2_alg».proof.Proof.Spec
import proofs.«102745_j75720273429289_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.RouteDist.Ker

open Idealize.ShloMosaic Idealize.ShloMosaic.ValueIdx Cert.KernelIdeal Cert.KernelIdeal.Gen

/-! ## The non-pointwise operations, each read at coordinates -/

/-- A sum along the 64 lanes of row `r`. -/
theorem laneSum_at (src : FVec Ideal S8192x64 .f32) (r : Fin 8192) :
    multiReduction .add [1] S8192 src 0x00000000#32 reduces_S8192x64_S8192 (.inl rfl) rfl (ix1 r)
      = ∑ d : Fin 64, src (ix2 r d) := by
  refine (Ideal.multiReduction_add_single src 0x00000000#32 reduces_S8192x64_S8192 (.inl rfl) rfl (ix1 r)).trans ?_
  refine Finset.sum_congr rfl fun k _ => ?_
  exact congrArg src (funext fun a => Fin.ext (by match a with | ⟨0, _⟩ => rfl | ⟨1, _⟩ => rfl))

/-! The two products' operand indices, coordinate by coordinate: the kept axis comes from the result index, the contracted
    axis from the contraction index. -/
theorem prodIn_lhs0 (i : S8192x32.Idx) (q : dot_S8192x64_S64x32_S8192x32_1_0_0_1_n_n.contr.Idx) : (dot_S8192x64_S64x32_S8192x32_1_0_0_1_n_n.lhsIdx i q 0).val = (i 0).val := by
  unfold DotDims.lhsIdx
  rw [dif_neg (show ¬(0 : Fin S8192x64.rank) ∈ dot_S8192x64_S64x32_S8192x32_1_0_0_1_n_n.lhsBatch by decide), dif_pos (show (0 : Fin S8192x64.rank) ∈ dot_S8192x64_S64x32_S8192x32_1_0_0_1_n_n.lhsNonContracting by decide)]
  rfl
theorem prodIn_lhs1 (i : S8192x32.Idx) (q : dot_S8192x64_S64x32_S8192x32_1_0_0_1_n_n.contr.Idx) : (dot_S8192x64_S64x32_S8192x32_1_0_0_1_n_n.lhsIdx i q 1).val = (q ⟨0, by decide⟩).val :=
  dot_S8192x64_S64x32_S8192x32_1_0_0_1_n_n.lhsIdx_val_of_single rfl i q
theorem prodIn_rhs0 (i : S8192x32.Idx) (q : dot_S8192x64_S64x32_S8192x32_1_0_0_1_n_n.contr.Idx) : (dot_S8192x64_S64x32_S8192x32_1_0_0_1_n_n.rhsIdx i q 0).val = (q ⟨0, by decide⟩).val :=
  dot_S8192x64_S64x32_S8192x32_1_0_0_1_n_n.rhsIdx_val_of_single rfl i q
theorem prodIn_rhs1 (i : S8192x32.Idx) (q : dot_S8192x64_S64x32_S8192x32_1_0_0_1_n_n.contr.Idx) : (dot_S8192x64_S64x32_S8192x32_1_0_0_1_n_n.rhsIdx i q 1).val = (i 1).val := by
  unfold DotDims.rhsIdx
  rw [dif_neg (show ¬(1 : Fin S64x32.rank) ∈ dot_S8192x64_S64x32_S8192x32_1_0_0_1_n_n.rhsBatch by decide), dif_pos (show (1 : Fin S64x32.rank) ∈ dot_S8192x64_S64x32_S8192x32_1_0_0_1_n_n.rhsNonContracting by decide)]
  rfl
theorem prodOut_lhs0 (i : S8192x64.Idx) (q : dot_S8192x32_S32x64_S8192x64_1_0_0_1_n_n.contr.Idx) : (dot_S8192x32_S32x64_S8192x64_1_0_0_1_n_n.lhsIdx i q 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
theorem prodOut_lhs1 (i : S8192x64.Idx) (q : dot_S8192x32_S32x64_S8192x64_1_0_0_1_n_n.contr.Idx) : (dot_S8192x32_S32x64_S8192x64_1_0_0_1_n_n.lhsIdx i q 1).val = (q ⟨0, by decide⟩).val :=
  dot_S8192x32_S32x64_S8192x64_1_0_0_1_n_n.lhsIdx_val_of_single rfl i q
theorem prodOut_rhs0 (i : S8192x64.Idx) (q : dot_S8192x32_S32x64_S8192x64_1_0_0_1_n_n.contr.Idx) : (dot_S8192x32_S32x64_S8192x64_1_0_0_1_n_n.rhsIdx i q 0).val = (q ⟨0, by decide⟩).val :=
  dot_S8192x32_S32x64_S8192x64_1_0_0_1_n_n.rhsIdx_val_of_single rfl i q
theorem prodOut_rhs1 (i : S8192x64.Idx) (q : dot_S8192x32_S32x64_S8192x64_1_0_0_1_n_n.contr.Idx) : (dot_S8192x32_S32x64_S8192x64_1_0_0_1_n_n.rhsIdx i q 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl

/-- A `[8192, 64] × [64, 32]` product from zero, at `(r, c)`: row `r` of the left against column `c` of the right. -/
theorem prodIn_at (l : FVec Ideal S8192x64 .bf16) (t : FVec Ideal S64x32 .bf16) (r : Fin 8192) (c : Fin 32) :
    matmul dot_S8192x64_S64x32_S8192x32_1_0_0_1_n_n none l t (constant S8192x32 .f32 0x00000000#32) (ix2 r c) = ∑ k : Fin 64, l (ix2 r k) * t (ix2 k c) := by
  refine (Ideal.matmul_constant_zero_apply dot_S8192x64_S64x32_S8192x32_1_0_0_1_n_n none l t (ix2 r c)).trans ?_
  rw [← Equiv.sum_comp (contrEquiv1 dot_S8192x64_S64x32_S8192x32_1_0_0_1_n_n 64 rfl rfl).symm]
  refine Finset.sum_congr rfl fun k _ => ?_
  have hk := contrEquiv1_symm_val dot_S8192x64_S64x32_S8192x32_1_0_0_1_n_n 64 rfl rfl k
  have el : dot_S8192x64_S64x32_S8192x32_1_0_0_1_n_n.lhsIdx (ix2 r c) ((contrEquiv1 dot_S8192x64_S64x32_S8192x32_1_0_0_1_n_n 64 rfl rfl).symm k) = ix2 r k := funext fun a => Fin.ext (by
    match a with
    | ⟨0, _⟩ => exact prodIn_lhs0 _ _
    | ⟨1, _⟩ => exact (prodIn_lhs1 _ _).trans hk)
  have er : dot_S8192x64_S64x32_S8192x32_1_0_0_1_n_n.rhsIdx (ix2 r c) ((contrEquiv1 dot_S8192x64_S64x32_S8192x32_1_0_0_1_n_n 64 rfl rfl).symm k) = ix2 k c := funext fun a => Fin.ext (by
    match a with
    | ⟨0, _⟩ => exact (prodIn_rhs0 _ _).trans hk
    | ⟨1, _⟩ => exact prodIn_rhs1 _ _)
  rw [el, er]

/-- A `[8192, 32] × [32, 64]` product from zero, at `(r, c)`. -/
theorem prodOut_at (l : FVec Ideal S8192x32 .bf16) (t : FVec Ideal S32x64 .bf16) (r : Fin 8192) (c : Fin 64) :
    matmul dot_S8192x32_S32x64_S8192x64_1_0_0_1_n_n none l t (constant S8192x64 .f32 0x00000000#32) (ix2 r c) = ∑ k : Fin 32, l (ix2 r k) * t (ix2 k c) := by
  refine (Ideal.matmul_constant_zero_apply dot_S8192x32_S32x64_S8192x64_1_0_0_1_n_n none l t (ix2 r c)).trans ?_
  rw [← Equiv.sum_comp (contrEquiv1 dot_S8192x32_S32x64_S8192x64_1_0_0_1_n_n 32 rfl rfl).symm]
  refine Finset.sum_congr rfl fun k _ => ?_
  have hk := contrEquiv1_symm_val dot_S8192x32_S32x64_S8192x64_1_0_0_1_n_n 32 rfl rfl k
  have el : dot_S8192x32_S32x64_S8192x64_1_0_0_1_n_n.lhsIdx (ix2 r c) ((contrEquiv1 dot_S8192x32_S32x64_S8192x64_1_0_0_1_n_n 32 rfl rfl).symm k) = ix2 r k := funext fun a => Fin.ext (by
    match a with
    | ⟨0, _⟩ => exact prodOut_lhs0 _ _
    | ⟨1, _⟩ => exact (prodOut_lhs1 _ _).trans hk)
  have er : dot_S8192x32_S32x64_S8192x64_1_0_0_1_n_n.rhsIdx (ix2 r c) ((contrEquiv1 dot_S8192x32_S32x64_S8192x64_1_0_0_1_n_n 32 rfl rfl).symm k) = ix2 k c := funext fun a => Fin.ext (by
    match a with
    | ⟨0, _⟩ => exact (prodOut_rhs0 _ _).trans hk
    | ⟨1, _⟩ => exact prodOut_rhs1 _ _)
  rw [el, er]

/-- The transposed table at `(d, p)` is the table at `(p, d)`. -/
theorem transposed_at (T : FVec Ideal S32x64 .bf16) (d : Fin 64) (p : Fin 32) :
    transpose S64x32 [1, 0] T transposes_S32x64_p1_0_S64x32 (ix2 d p) = T (ix2 p d) :=
  transpose_apply _ T transposes_S32x64_p1_0_S64x32 _ _ fun c => match c with | ⟨0, _⟩ => rfl | ⟨1, _⟩ => rfl

/-- A per-row value kept as a column and spread over the row's lanes reads, at `(r, d)`, the value of row `r`. -/
theorem spread_at (s : FVec Ideal S8192 .f32) (r : Fin 8192) (d : Fin 64) :
    broadcastTo S8192x64 (shapeCast S8192x1 s shapeCasts_S8192_S8192x1) broadcasts_S8192x1_S8192x64 (ix2 r d) = s (ix1 r) := by
  refine (broadcastTo_apply (shapeCast S8192x1 s shapeCasts_S8192_S8192x1) broadcasts_S8192x1_S8192x64 (ix2 r d)
    (ix2 r (0 : Fin 1)) fun a => ?_).trans ?_
  · match a with
    | ⟨0, _⟩ => show r.val = if (8192 : ℕ) = 1 then 0 else r.val; rw [if_neg (by decide)]
    | ⟨1, _⟩ => show (0 : ℕ) = if (1 : ℕ) = 1 then 0 else d.val; rw [if_pos rfl]
  · refine shapeCast_apply s shapeCasts_S8192_S8192x1 (ix2 r (0 : Fin 1)) (ix1 r) ?_
    rw [Shape.rowMajor_val_two, Shape.rowMajor_val_one]
    show r.val = r.val * 1 + 0
    omega

end Cert.RouteDist.Ker

end
-- ==== Proof.KernelPayload.lean ====
/-
  The body's stored value at row `r` of its block is the row score of `scoreDiff`.

  The body's arithmetic is split into its three parts: the routing weights `[8192, 32]` (`bodyWeights`), the two
  mixtures of the weights with a table `[8192, 64]` (`bodyMix`), and the score from the two embeddings, the normal and
  the translation (`bodyScore`). Each part is read at coordinates with the operations' lemmas; put together, row `r`
  of what the body stores is `X.distDiff` of row `r` of the two loaded blocks, with the weights scaled before the
  contraction.
-/
import proofs.«102745_j75720273429289_2_alg».proof.Proof.KernelOps

noncomputable section

open scoped BigOperators

namespace Cert.RouteDist.Ker

open Idealize.ShloMosaic Idealize.ShloMosaic.ValueIdx Cert.KernelIdeal Cert.KernelIdeal.Gen

/-- Row `r` of a block of 8192 rows. -/
def brow (x : Vec Ideal S8192x64 .f32) (r : Fin 8192) : Fin 64 → EReal := fun d => x (ix2 r d)

/-- The body's routing weights: `(x0 + x1) · 0.5` against the transposed preference table, from zero. -/
def bodyWeights (x0 x1 : Vec Ideal S8192x64 .f32) (x2 : Vec Ideal S32x64 .f32) : FVec Ideal S8192x32 .bf16 :=
  truncf .bf16 (matmul dot_S8192x64_S64x32_S8192x32_1_0_0_1_n_n none
    (truncf .bf16 (mulf (addf x0 x1) (broadcast S8192x64 (Scalar.ofBits .f32 0x3F000000#32 : Ideal .f32))) bitsLt_bf16_f32)
    (transpose S64x32 [1, 0] (truncf .bf16 x2 bitsLt_bf16_f32) transposes_S32x64_p1_0_S64x32)
    (constant (F := Ideal) S8192x32 .f32 0x00000000#32)) bitsLt_bf16_f32

/-- The weights mixed with a table, from zero. -/
def bodyMix (w : FVec Ideal S8192x32 .bf16) (T : Vec Ideal S32x64 .f32) : FVec Ideal S8192x64 .f32 :=
  matmul dot_S8192x32_S32x64_S8192x64_1_0_0_1_n_n none w (truncf .bf16 T bitsLt_bf16_f32) (constant (F := Ideal) S8192x64 .f32 0x00000000#32)

/-- The score of every row from the two embeddings `u v`, the normal `n` and the translation `s`. -/
def bodyScore (u v n s : FVec Ideal S8192x64 .f32) : FVec Ideal S8192 .f32 :=
  multiReduction (F := Ideal) .add [1] S8192
    (absf (addf (subf (subf u v)
      (mulf (broadcastTo S8192x64
        (shapeCast S8192x1 (multiReduction (F := Ideal) .add [1] S8192 (mulf (subf u v) n) 0x00000000#32 reduces_S8192x64_S8192 (.inl rfl) rfl)
          shapeCasts_S8192_S8192x1) broadcasts_S8192x1_S8192x64) n)) s))
    0x00000000#32 reduces_S8192x64_S8192 (.inl rfl) rfl

/-- The stored value is the score of the loaded blocks with the normal and the translation mixed from the weights. -/
theorem payload_split (x0 x1 : Vec Ideal S8192x64 .f32) (x2 x3 : Vec Ideal S32x64 .f32) :
    k0_pay1 (F := Ideal) x0 x1 x2 x3
      = bodyScore x0 x1 (bodyMix (bodyWeights x0 x1 x2) x3) (bodyMix (bodyWeights x0 x1 x2) x2) := by
  unfold k0_pay1 bodyScore bodyMix bodyWeights
  simp only [shapeCast_self]

/-- The weights at `(r, p)`. -/
theorem bodyWeights_at (x0 x1 : Vec Ideal S8192x64 .f32) (x2 : Vec Ideal S32x64 .f32) (r : Fin 8192) (p : Fin 32) :
    bodyWeights x0 x1 x2 (ix2 r p) = X.weightsIn half (brow x0 r) (brow x1 r) (tab x2) p := by
  unfold bodyWeights
  refine (prodIn_at _ _ r p).trans ?_
  unfold X.weightsIn
  refine Finset.sum_congr rfl fun k _ => ?_
  refine congrArg (fun z => ((x0 (ix2 r k) + x1 (ix2 r k)) * half) * z) ?_
  exact transposed_at _ k p

/-- A mixture at `(r, d)`. -/
theorem bodyMix_at (w : FVec Ideal S8192x32 .bf16) (T : Vec Ideal S32x64 .f32) (r : Fin 8192) (d : Fin 64) :
    bodyMix w T (ix2 r d) = ∑ p : Fin 32, w (ix2 r p) * T (ix2 p d) :=
  prodOut_at w _ r d

/-- The score at row `r`. -/
theorem bodyScore_at (u v n s : FVec Ideal S8192x64 .f32) (r : Fin 8192) :
    bodyScore u v n s (ix1 r)
      = X.distDiff (fun d => u (ix2 r d)) (fun d => v (ix2 r d)) (fun d => n (ix2 r d)) (fun d => s (ix2 r d)) := by
  unfold bodyScore
  refine (laneSum_at _ r).trans ?_
  unfold X.distDiff
  refine Finset.sum_congr rfl fun d _ => ?_
  have key : broadcastTo S8192x64
      (shapeCast S8192x1 (multiReduction (F := Ideal) .add [1] S8192 (mulf (subf u v) n) 0x00000000#32 reduces_S8192x64_S8192 (.inl rfl) rfl)
        shapeCasts_S8192_S8192x1) broadcasts_S8192x1_S8192x64 (ix2 r d)
      = ∑ e : Fin 64, (u (ix2 r e) - v (ix2 r e)) * n (ix2 r e) :=
    (spread_at _ r d).trans (laneSum_at _ r)
  exact congrArg (fun z => max ((u (ix2 r d) - v (ix2 r d) - z * n (ix2 r d)) + s (ix2 r d))
    (-((u (ix2 r d) - v (ix2 r d) - z * n (ix2 r d)) + s (ix2 r d)))) key

/-- ROW `r` OF WHAT THE BODY STORES: the row score, scaled before contracting, the difference projected. -/
theorem payload_at (x0 x1 : Vec Ideal S8192x64 .f32) (x2 x3 : Vec Ideal S32x64 .f32) (r : Fin 8192) :
    k0_pay1 (F := Ideal) x0 x1 x2 x3 (ix1 r)
      = X.distDiff (brow x0 r) (brow x1 r)
          (X.mix (X.weightsIn half (brow x0 r) (brow x1 r) (tab x2)) (tab x3))
          (X.mix (X.weightsIn half (brow x0 r) (brow x1 r) (tab x2)) (tab x2)) := by
  rw [payload_split]
  refine (bodyScore_at x0 x1 _ _ r).trans ?_
  have hmix : ∀ T : Vec Ideal S32x64 .f32, (fun d => bodyMix (bodyWeights x0 x1 x2) T (ix2 r d))
      = X.mix (X.weightsIn half (brow x0 r) (brow x1 r) (tab x2)) (tab T) := fun T => funext fun d => by
    refine (bodyMix_at _ T r d).trans ?_
    unfold X.mix
    refine Finset.sum_congr rfl fun p _ => ?_
    rw [bodyWeights_at]
    rfl
  rw [hmix x3, hmix x2]
  rfl

end Cert.RouteDist.Ker

end
-- ==== Proof.KernelArray.lean ====
/-
  The kernel's result array is `scoreDiff` of the arrays its region finds.

  The grid has 64 points; point `t` works on rows `8192 t … 8192 t + 8191`: the two gathered arrays' windows and the
  result's window all sit at block `t` along the rows, and the two tables' windows always at block `(0, 0)`, the whole
  table (decided over the grid). So row `r` of the first two input blocks at point `t` is row `8192 t + r` of the gathered
  arrays, the other two input blocks are the tables, and by the payload's reading what point `t` writes back is block `t` of
  `scoreDiff` of those four arrays. Every index `i` of the result lies in the block of point `i / 8192`, so the blocks cover
  the result array and it equals `scoreDiff` everywhere.
-/
import proofs.«102745_j75720273429289_2_alg».proof.Proof.KernelPayload
import proofs.«102745_j75720273429289_2_alg».proof.Proof.Gen.KernelIdeal.Value
import Idealize.ShloMosaic.Lib.Pipeline.Value

noncomputable section

open scoped BigOperators

namespace Cert.RouteDist.Ker

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

theorem zero1 : (![0] : Fin 1 → Nat) = fun _ => 0 := funext fun a => by fin_cases a; rfl
theorem zero2 : (![0, 0] : Fin 2 → Nat) = fun _ => 0 := funext fun a => by fin_cases a <;> rfl

/-- Where each window sits at point `t`: the row windows at block `t`, the tables' windows at block `(0, 0)`. -/
theorem window_places : ∀ t : Fin cfg0.N, win0_4.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The arrays the region finds, as plain functions of an index. -/
abbrev foundU (c : Dev nD) : (⟨2, ![524288, 64]⟩ : Shape).Idx → EReal := V m c main_v6
abbrev foundI (c : Dev nD) : (⟨2, ![524288, 64]⟩ : Shape).Idx → EReal := V m c main_v13
abbrev foundP (c : Dev nD) : (⟨2, ![32, 64]⟩ : Shape).Idx → EReal := V m c main_arg4
abbrev foundN (c : Dev nD) : (⟨2, ![32, 64]⟩ : Shape).Idx → EReal := V m c main_arg5

/-- Row `r` of the user window's block at point `t` is row `b = 8192 t + r` of the gathered user array. -/
theorem blockU_at (c : Dev nD) (t : Fin cfg0.N) (r : Fin 8192) (d : Fin 64) (b : Fin 524288) (hb : b.val = t.val * 8192 + r.val) :
    (iblk m c 0 t : Vec Ideal S8192x64 .f32) (ix2 r d) = foundU m c (ix2 b d) := by
  obtain ⟨-, e0, e1, -⟩ := window_places t
  unfold iblk
  rw [View.read_apply]
  show V m c main_v6 _ = V m c main_v6 _
  congr 1
  funext a
  apply Fin.ext
  match a with
  | ⟨0, _⟩ => show win0_0.index t (0 : Fin 2) * 8192 + 1 * r.val = b.val; rw [e0, hb]; omega
  | ⟨1, _⟩ => show win0_0.index t (1 : Fin 2) * 64 + 1 * d.val = d.val; rw [e1]; omega

/-- The same for the item window. -/
theorem blockI_at (c : Dev nD) (t : Fin cfg0.N) (r : Fin 8192) (d : Fin 64) (b : Fin 524288) (hb : b.val = t.val * 8192 + r.val) :
    (iblk m c 1 t : Vec Ideal S8192x64 .f32) (ix2 r d) = foundI m c (ix2 b d) := by
  obtain ⟨-, -, -, e0, e1, -⟩ := window_places t
  unfold iblk
  rw [View.read_apply]
  show V m c main_v13 _ = V m c main_v13 _
  congr 1
  funext a
  apply Fin.ext
  match a with
  | ⟨0, _⟩ => show win0_1.index t (0 : Fin 2) * 8192 + 1 * r.val = b.val; rw [e0, hb]; omega
  | ⟨1, _⟩ => show win0_1.index t (1 : Fin 2) * 64 + 1 * d.val = d.val; rw [e1]; omega

/-- The preference window's block is the whole table, at every point. -/
theorem blockP_at (c : Dev nD) (t : Fin cfg0.N) (p : Fin 32) (d : Fin 64) :
    (iblk m c 2 t : Vec Ideal S32x64 .f32) (ix2 p d) = foundP m c (ix2 p d) := by
  obtain ⟨-, -, -, -, -, e0, e1, -⟩ := window_places t
  unfold iblk
  rw [View.read_apply]
  show V m c main_arg4 _ = V m c main_arg4 _
  congr 1
  funext a
  apply Fin.ext
  match a with
  | ⟨0, _⟩ => show win0_2.index t (0 : Fin 2) * 32 + 1 * p.val = p.val; rw [e0]; omega
  | ⟨1, _⟩ => show win0_2.index t (1 : Fin 2) * 64 + 1 * d.val = d.val; rw [e1]; omega

/-- The normals' window's block is the whole table, at every point. -/
theorem blockN_at (c : Dev nD) (t : Fin cfg0.N) (p : Fin 32) (d : Fin 64) :
    (iblk m c 3 t : Vec Ideal S32x64 .f32) (ix2 p d) = foundN m c (ix2 p d) := by
  obtain ⟨-, -, -, -, -, -, -, e0, e1⟩ := window_places t
  unfold iblk
  rw [View.read_apply]
  show V m c main_arg5 _ = V m c main_arg5 _
  congr 1
  funext a
  apply Fin.ext
  match a with
  | ⟨0, _⟩ => show win0_3.index t (0 : Fin 2) * 32 + 1 * p.val = p.val; rw [e0]; omega
  | ⟨1, _⟩ => show win0_3.index t (1 : Fin 2) * 64 + 1 * d.val = d.val; rw [e1]; omega

/-- WHAT POINT `t` WRITES BACK is block `t` of `scoreDiff` of the four arrays the region finds. -/
theorem flushed_eq (c : Dev nD) (t : Fin cfg0.N) :
    (dats m 0 c).flushed 4 t
      = ((cfg0.win 4).blk t).view.read (Elt Ideal) (scoreDiff (foundU m c) (foundI m c) (foundP m c) (foundN m c)) := by
  rw [Cert.KernelIdeal.Value.flushed4]
  unfold out0_4
  rw [View.canon_unit_zero zero1]
  simp only [View.ld_unit_zero (S := S8192x64) zero2, View.ld_unit_zero (S := S32x64) zero2]
  obtain ⟨e4, -⟩ := window_places t
  funext j
  obtain ⟨r, rfl⟩ : ∃ r : Fin 8192, j = ix1 r := ⟨j 0, eq_ix1 j⟩
  show k0_pay1 (F := Ideal) (iblk m c 0 t) (iblk m c 1 t) (iblk m c 2 t) (iblk m c 3 t) (ix1 r)
    = scoreDiff (foundU m c) (foundI m c) (foundP m c) (foundN m c) (((cfg0.win 4).blk t).view.emb (ix1 r))
  refine (payload_at _ _ _ _ r).trans ?_
  unfold scoreDiff
  have hb : ((((cfg0.win 4).blk t).view.emb (ix1 r)) 0).val = t.val * 8192 + r.val := by
    show win0_4.index t (0 : Fin 1) * 8192 + 1 * r.val = _
    rw [e4]; omega
  have h0 : brow (iblk m c 0 t) r = row (foundU m c) ((((cfg0.win 4).blk t).view.emb (ix1 r)) 0) :=
    funext fun d => blockU_at m c t r d _ hb
  have h1 : brow (iblk m c 1 t) r = row (foundI m c) ((((cfg0.win 4).blk t).view.emb (ix1 r)) 0) :=
    funext fun d => blockI_at m c t r d _ hb
  have h2 : tab (iblk m c 2 t) = tab (foundP m c) := funext fun p => funext fun d => blockP_at m c t p d
  have h3 : tab (iblk m c 3 t) = tab (foundN m c) := funext fun p => funext fun d => blockN_at m c t p d
  rw [h0, h1, h2, h3]

/-- An index of the result is in point `t`'s block iff it is one of the block's 8192 rows. -/
theorem mem_block (t : Fin cfg0.N) (i : S524288.Idx) :
    i ∈ ((cfg0.win 4).blk t).view.set ↔ ∀ a : Fin 1, win0_4.index t a * S8192.size a ≤ (i a).val
      ∧ (i a).val < win0_4.index t a * S8192.size a + S8192.size a := by
  show i ∈ ((View.whole main_v14).slice (win0_4.rect t)).set ↔ _
  rw [View.set_slice_whole, Rect.mem_set_unit]
  exact Iff.rfl

/-- Every index of the result lies in the block of the point `i / 8192`, which writes back. -/
theorem blocks_cover (i : S524288.Idx) : ∃ t : Fin cfg0.N, (cfg0.win 4).flush t = true ∧ i ∈ ((cfg0.win 4).blk t).view.set := by
  have hN : cfg0.N = 64 := N_0
  have hi : (i 0).val < 524288 := (i 0).isLt
  refine ⟨⟨(i 0).val / 8192, by rw [hN]; omega⟩, flush0_4 _, ?_⟩
  rw [mem_block]
  intro a
  obtain ⟨e4, -⟩ := window_places ⟨(i 0).val / 8192, by rw [hN]; omega⟩
  match a with
  | ⟨0, _⟩ =>
    show win0_4.index _ (0 : Fin 1) * 8192 ≤ (i 0).val ∧ (i 0).val < win0_4.index _ (0 : Fin 1) * 8192 + 8192
    rw [e4]
    show (i 0).val / 8192 * 8192 ≤ (i 0).val ∧ (i 0).val < (i 0).val / 8192 * 8192 + 8192
    omega

/-- THE RESULT ARRAY after the run is `scoreDiff` of the four arrays the region finds. -/
theorem final (c : Dev nD) :
    (dats m 0 c).arrAt 4 cfg0.N = scoreDiff (foundU m c) (foundI m c) (foundP m c) (foundN m c) :=
  (dats m 0 c).arrAt_eq_of_cover 4 _ (fun t _ => flushed_eq m c t) blocks_cover

/-- The kernel's run, its result named: `scoreDiff` of what the region finds, the arguments unchanged. -/
theorem run : θ_run defs (onTc (τ := τ) (main (F := Ideal))) ⟨m, fun _ => 0, ρ⟩ fun r => ∀ c : Dev nD,
      r.2.mem ((c : Thread nD τ).loc main_v14) = scoreDiff (foundU m c) (foundI m c) (foundP m c) (foundN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.RouteDist.Ker

end
-- ==== Proof.RefRead.lean ====
/-
  The reference computes `scoreSep`.

  Its result is read back one operation at a time, at an index given by coordinates. Entry `b` of the result is a sum over
  the 64 coordinates `d` of `|proj u + r - proj v|` at `d`, where `u` and `v` are row `b` of the two gathered arrays;
  the routing weights at `(b, p)` are the contraction over `d` of `u + v` with row `p` of the preference table, then
  scaled by `0.5`; `r` and the normal `n` at `(b, d)` are contractions of the weights over the 32 experts with column `d`
  of the two tables; the two inner products `u · n` and `v · n` are sums over `d` from the zero the reduction starts at.
  Each stage below says which entries of its operands an entry reads; chained, they are `scoreSep` of the gathered
  arrays and the tables.
-/
import proofs.«102745_j75720273429289_2_alg».proof.Proof.Spec
import proofs.«102745_j75720273429289_2_alg».proof.Proof.Gen.ReferenceIdeal.Read
import Idealize.ShloMosaic.PureOps.Ideal.Laws

noncomputable section

open scoped BigOperators

namespace Cert.RouteDist.Ref

open Idealize.ShloMosaic Idealize.ShloMosaic.ValueIdx Cert.ReferenceIdeal Cert.ReferenceIdeal.Read

variable (x0 x1 : (⟨S524288, .i32⟩ : BufTy).Contents (Elt Ideal)) (x2 : (⟨S1000000x64, .f32⟩ : BufTy).Contents (Elt Ideal))
  (x3 : (⟨S2000000x64, .f32⟩ : BufTy).Contents (Elt Ideal)) (x4 x5 : (⟨S32x64, .f32⟩ : BufTy).Contents (Elt Ideal))

/-- The routing weights at `(b, p)`: row `b` of the summed embeddings against row `p` of the preference table, then scaled. -/
theorem weights_at (b : Fin 524288) (p : Fin 32) :
    val_main_v17 (F := Ideal) x0 x1 x2 x3 x4 (ix2 b p)
      = X.weightsOut half (row (val_main_v6 (F := Ideal) x0 x2) b) (row (val_main_v13 (F := Ideal) x1 x3) b) (tab x4) p := by
  rw [val_main_v17_apply, val_main_v16_apply, val_main_cst_apply, val_main_v15_apply]
  have el : ∀ k : Fin 64, lidx_main_v15 (ix2 b p) k = ix2 b k := fun k => funext fun a => by
    match a with | ⟨0, _⟩ => rfl | ⟨1, _⟩ => rfl
  have er : ∀ k : Fin 64, ridx_main_v15 (ix2 b p) k = ix2 p k := fun k => funext fun a => by
    match a with | ⟨0, _⟩ => rfl | ⟨1, _⟩ => rfl
  simp only [el, er, val_main_v14_apply, Ideal.mulf_def, Ideal.addf_def, Ideal.ofBits_def]
  rfl

/-- The normal at `(b, d)`: the weights of row `b` against column `d` of the normals' table. -/
theorem normal_at (b : Fin 524288) (d : Fin 64) :
    val_main_v19 (F := Ideal) x0 x1 x2 x3 x4 x5 (ix2 b d)
      = X.mix (X.weightsOut half (row (val_main_v6 (F := Ideal) x0 x2) b) (row (val_main_v13 (F := Ideal) x1 x3) b) (tab x4)) (tab x5) d := by
  rw [val_main_v19_apply]
  have el : ∀ k : Fin 32, lidx_main_v19 (ix2 b d) k = ix2 b k := fun k => funext fun a => by
    match a with | ⟨0, _⟩ => rfl | ⟨1, _⟩ => rfl
  have er : ∀ k : Fin 32, ridx_main_v19 (ix2 b d) k = ix2 k d := fun k => funext fun a => by
    match a with | ⟨0, _⟩ => rfl | ⟨1, _⟩ => rfl
  simp only [el, er, weights_at]
  rfl

/-- The translation at `(b, d)`: the weights of row `b` against column `d` of the preference table. -/
theorem shift_at (b : Fin 524288) (d : Fin 64) :
    val_main_v18 (F := Ideal) x0 x1 x2 x3 x4 (ix2 b d)
      = X.mix (X.weightsOut half (row (val_main_v6 (F := Ideal) x0 x2) b) (row (val_main_v13 (F := Ideal) x1 x3) b) (tab x4)) (tab x4) d := by
  rw [val_main_v18_apply]
  have el : ∀ k : Fin 32, lidx_main_v18 (ix2 b d) k = ix2 b k := fun k => funext fun a => by
    match a with | ⟨0, _⟩ => rfl | ⟨1, _⟩ => rfl
  have er : ∀ k : Fin 32, ridx_main_v18 (ix2 b d) k = ix2 k d := fun k => funext fun a => by
    match a with | ⟨0, _⟩ => rfl | ⟨1, _⟩ => rfl
  simp only [el, er, weights_at]
  rfl

/-- The user's inner product with the normal, at row `b`: a sum over the row from zero. -/
theorem dotU_at (b : Fin 524288) :
    val_main_v21 (F := Ideal) x0 x1 x2 x3 x4 x5 (ix1 b)
      = ∑ e : Fin 64, row (val_main_v6 (F := Ideal) x0 x2) b e
          * X.mix (X.weightsOut half (row (val_main_v6 (F := Ideal) x0 x2) b) (row (val_main_v13 (F := Ideal) x1 x3) b) (tab x4)) (tab x5) e := by
  rw [val_main_v21_apply, val_main_cst_3_apply]
  have e : ∀ k : Fin 64, idx_main_v21 (ix1 b) k = ix2 b k := fun k => funext fun a => by
    match a with | ⟨0, _⟩ => rfl | ⟨1, _⟩ => rfl
  simp only [e, val_main_v20_apply, normal_at, Ideal.ofBits_def, Ideal.ofBits_zero_f32, zero_add, Ideal.mulf_def]
  rfl

/-- The item's inner product with the normal, at row `b`. -/
theorem dotI_at (b : Fin 524288) :
    val_main_v27 (F := Ideal) x0 x1 x2 x3 x4 x5 (ix1 b)
      = ∑ e : Fin 64, row (val_main_v13 (F := Ideal) x1 x3) b e
          * X.mix (X.weightsOut half (row (val_main_v6 (F := Ideal) x0 x2) b) (row (val_main_v13 (F := Ideal) x1 x3) b) (tab x4)) (tab x5) e := by
  rw [val_main_v27_apply, val_main_cst_4_apply]
  have e : ∀ k : Fin 64, idx_main_v27 (ix1 b) k = ix2 b k := fun k => funext fun a => by
    match a with | ⟨0, _⟩ => rfl | ⟨1, _⟩ => rfl
  simp only [e, val_main_v26_apply, normal_at, Ideal.ofBits_def, Ideal.ofBits_zero_f32, zero_add, Ideal.mulf_def]
  rfl

/-- THE REFERENCE IS `scoreSep` of the two gathered arrays and the two tables. -/
theorem result_eq :
    val_main_v35 (F := Ideal) x0 x1 x2 x3 x4 x5
      = scoreSep (val_main_v6 (F := Ideal) x0 x2) (val_main_v13 (F := Ideal) x1 x3) x4 x5 := by
  funext i
  obtain ⟨b, rfl⟩ : ∃ b, i = ix1 b := ⟨i 0, eq_ix1 i⟩
  rw [val_main_v35_apply, val_main_cst_5_apply]
  have e : ∀ k : Fin 64, idx_main_v35 (ix1 b) k = ix2 b k := fun k => funext fun a => by
    match a with | ⟨0, _⟩ => rfl | ⟨1, _⟩ => rfl
  have eU : ∀ k : Fin 64, idx_main_v22 (idx_main_v23 (ix2 b k)) = ix1 b := fun k => funext fun a => by
    match a with | ⟨0, _⟩ => rfl
  have eI : ∀ k : Fin 64, idx_main_v28 (idx_main_v29 (ix2 b k)) = ix1 b := fun k => funext fun a => by
    match a with | ⟨0, _⟩ => rfl
  simp only [e, val_main_v34_apply, val_main_v33_apply, val_main_v32_apply, val_main_v31_apply, val_main_v30_apply,
    val_main_v29_apply, val_main_v28_apply, val_main_v25_apply, val_main_v24_apply, val_main_v23_apply, val_main_v22_apply,
    eU, eI, dotU_at, dotI_at, normal_at, shift_at, Ideal.hostAbsf_def, Ideal.absf_def, Ideal.subf_def, Ideal.addf_def,
    Ideal.mulf_def, Ideal.ofBits_def, Ideal.ofBits_zero_f32, zero_add]
  rfl

end Cert.RouteDist.Ref

end
-- ==== Proof.Finite.lean ====
/-
  The precondition says every float entry is a real number.

  The precondition is the conjunction, over the four float arrays, of "every entry `x` has `|x| < +∞`", each conjunct a
  reduction by `and` of the entrywise comparisons. On the extended reals `|x| = max x (-x)` is `+∞` exactly at the two
  infinities, so `|x| < +∞` says that `x` is (the image of) a real. The two integer arrays are not constrained.
-/
import proofs.«102745_j75720273429289_2_alg».proof.Proof.Spec
import proofs.«102745_j75720273429289_2_alg».proof.Pre_finite_inputs
import proofs.«102745_j75720273429289_2_alg».proof.Proof.Gen.Pre_finite_inputs
import Idealize.ShloMosaic.Lib.ReduceAll
import Idealize.ShloMosaic.Lib.ValueIdx
import Idealize.ShloMosaic.PureOps.Ideal.Laws

noncomputable section

namespace Cert.RouteDist.Finite

open Idealize.ShloMosaic Idealize.ShloMosaic.ValueIdx Cert.Pre_finite_inputs

/-- An extended real whose absolute value is below `+∞` is a real. -/
theorem real_of_abs_lt_inf (x : EReal) (h : Ideal.cmp .olt (max x (-x)) (Ideal.ofBits .f32 0x7F800000#32) = 1#1) :
    ∃ r : ℝ, x = r := by
  rw [ofBits_inf] at h
  induction x using EReal.rec with
  | bot => exfalso; simp [Ideal.cmp] at h
  | coe r => exact ⟨r, rfl⟩
  | top => exfalso; simp [Ideal.cmp] at h

instance : Subsingleton S_.Idx := ⟨fun a b => funext fun d => d.elim0⟩

/-- One conjunct of the precondition: if the `and` over all entries of "`|a j| < +∞`" is true, every entry is a real. -/
theorem all_real {s : Shape} {axes : List (Fin s.rank)} (a : FVec Ideal s .f32) (bc : S_.BroadcastsInDim s (![] : Fin 0 → Fin s.rank))
    (rd : s.ReducesTo axes S_) (hu : 0 < S_.numel)
    (h : Host.reduce IntOp.andi (cmpf .olt (Host.absf a) (broadcastInDim s ![] bc (constant (F := Ideal) S_ .f32 0x7F800000#32)))
      (constantI S_ 1 1#1) rd hu ix0 = 1#1) (j : s.Idx) : ∃ x : ℝ, a j = x :=
  real_of_abs_lt_inf (a j) (Host.reduce_andi_all _ _ rd hu ix0 h j)

/-- THE PRECONDITION READ: every entry of the two embedding tables and of the two small tables is a real. -/
theorem of_pre (a0 a1 : IVec S524288 32) (a2 : FVec Ideal S1000000x64 .f32) (a3 : FVec Ideal S2000000x64 .f32)
    (a4 a5 : FVec Ideal S32x64 .f32) (h : fn (F := Ideal) a0 a1 a2 a3 a4 a5 = fun _ => 1#1) :
    (∀ j, ∃ x : ℝ, a2 j = x) ∧ (∀ j, ∃ x : ℝ, a3 j = x) ∧ (∀ j, ∃ x : ℝ, a4 j = x) ∧ (∀ j, ∃ x : ℝ, a5 j = x) := by
  have h0 := congrFun h ix0
  dsimp only [fn, fn_part1] at h0
  obtain ⟨h123, h5⟩ := IntOp.andi_eq_one.1 h0
  obtain ⟨h12, h4⟩ := IntOp.andi_eq_one.1 h123
  obtain ⟨h2, h3⟩ := IntOp.andi_eq_one.1 h12
  exact ⟨all_real a2 _ _ _ h2, all_real a3 _ _ _ h3, all_real a4 _ _ _ h4, all_real a5 _ _ _ h5⟩

end Cert.RouteDist.Finite

end
-- ==== Proof.Bridge.lean ====
/-
  The two programs compute one array.

  Before its region the kernel's program gathers the rows `user_w[u_ids]` and `item_w[i_ids]` with the very operations the
  reference starts with (a negative index wrapped once, then the gather, which clamps): so the two arrays its region finds
  are the reference's two gathered arrays, and the two tables are found as launched. A gathered entry is an entry of the
  table it is gathered from, whatever the index; so under the precondition all four arrays have real entries, and there
  the kernel's `scoreDiff` and the reference's `scoreSep` agree.
-/
import proofs.«102745_j75720273429289_2_alg».proof.Defs
import proofs.«102745_j75720273429289_2_alg».proof.Proof.KernelArray
import proofs.«102745_j75720273429289_2_alg».proof.Proof.RefRead
import proofs.«102745_j75720273429289_2_alg».proof.Proof.Finite
import proofs.«102745_j75720273429289_2_alg».proof.Proof.Gen.ReferenceIdeal.Run
import proofs.«102745_j75720273429289_2_alg».proof.Proof.Gen.ReferenceIdeal.Read
import Idealize.ShloMosaic.Lib.StableHlo.Run

noncomputable section

namespace Cert.RouteDist.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

/-- The user array the region finds is the reference's gather of the user table. -/
theorem foundU_eq (c : Dev Cert.KernelIdeal.nD) :
    Ker.foundU m c = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  show (Cert.KernelIdeal.Gen.V m c Cert.KernelIdeal.main_v6 : (⟨2, ![524288, 64]⟩ : Shape).Idx → EReal) = _
  dsimp only [Cert.KernelIdeal.Gen.V, Cert.KernelIdeal.Gen.hostOps0]
  after_results
  rfl

/-- The item array the region finds is the reference's gather of the item table. -/
theorem foundI_eq (c : Dev Cert.KernelIdeal.nD) :
    Ker.foundI m c = Cert.ReferenceIdeal.Read.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
  show (Cert.KernelIdeal.Gen.V m c Cert.KernelIdeal.main_v13 : (⟨2, ![524288, 64]⟩ : Shape).Idx → EReal) = _
  dsimp only [Cert.KernelIdeal.Gen.V, Cert.KernelIdeal.Gen.hostOps0]
  after_results
  rfl

/-- The two tables are found as launched. -/
theorem foundP_eq (c : Dev Cert.KernelIdeal.nD) : Ker.foundP m c = m ((c.tc : Thread Cert.KernelIdeal.nD Cert.KernelIdeal.τ).loc Cert.KernelIdeal.main_arg4) := Cert.KernelIdeal.Gen.V_main_arg4 m c
theorem foundN_eq (c : Dev Cert.KernelIdeal.nD) : Ker.foundN m c = m ((c.tc : Thread Cert.KernelIdeal.nD Cert.KernelIdeal.τ).loc Cert.KernelIdeal.main_arg5) := Cert.KernelIdeal.Gen.V_main_arg5 m c

/-- A gathered entry is an entry of the table: real tables give real gathered arrays. -/
theorem gatheredU_real (x0 : (⟨Cert.ReferenceIdeal.S524288, .i32⟩ : BufTy).Contents (Elt Ideal)) (x2 : (⟨Cert.ReferenceIdeal.S1000000x64, .f32⟩ : BufTy).Contents (Elt Ideal))
    (h : ∀ j, ∃ x : ℝ, x2 j = x) (j : Cert.ReferenceIdeal.S524288x64.Idx) : ∃ x : ℝ, Cert.ReferenceIdeal.Read.val_main_v6 (F := Ideal) x0 x2 j = x := by
  unfold Cert.ReferenceIdeal.Read.val_main_v6 Host.gather
  exact h _
theorem gatheredI_real (x1 : (⟨Cert.ReferenceIdeal.S524288, .i32⟩ : BufTy).Contents (Elt Ideal)) (x3 : (⟨Cert.ReferenceIdeal.S2000000x64, .f32⟩ : BufTy).Contents (Elt Ideal))
    (h : ∀ j, ∃ x : ℝ, x3 j = x) (j : Cert.ReferenceIdeal.S524288x64.Idx) : ∃ x : ℝ, Cert.ReferenceIdeal.Read.val_main_v13 (F := Ideal) x1 x3 j = x := by
  unfold Cert.ReferenceIdeal.Read.val_main_v13 Host.gather
  exact h _

/-- At the extended reals, from memories agreeing on the arguments and under the precondition, the kernel's result
    (`scoreDiff` of what its region finds) and the reference's (`scoreSep` of its gathers and the tables) are one array. -/
theorem algebraic : Cert.algebraic_KernelIdeal_ReferenceIdeal := by
  intro m ρ m' ρ' hpre hagree
  refine ⟨_, Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Ref.result_eq, (hagree c).1, (hagree c).2.1, (hagree c).2.2.1, (hagree c).2.2.2.1,
    (hagree c).2.2.2.2.1, (hagree c).2.2.2.2.2]
  obtain ⟨r2, r3, r4, r5⟩ := Finite.of_pre _ _ _ _ _ _ (hpre c)
  rw [foundU_eq, foundI_eq, foundP_eq, foundN_eq]
  exact (scoreDiff_eq_scoreSep _ _ _ _ (gatheredU_real _ _ r2) (gatheredI_real _ _ r3) r4 r5).symm

end Cert.RouteDist.Bridge

end
-- ==== Proof.lean ====
/-
  The certificate of the routed hyperplane-distance kernel against its jnp reference.

  Both programs gather `user_w[u_ids]` and `item_w[i_ids]` and score each of the 524288 rows by the L1 norm of
  `proj u + r - proj v`, with `proj x = x - (x · n) n`, where the routing weights `w = ((u + v) Pᵀ) / 2` give the translation
  `r = w P` and the normal `n = w N`. The kernel halves `u + v` before the first product and, the projection being linear,
  projects the difference `u - v` once; the reference halves after the product and projects `u` and `v` separately.
  Over the reals these are one number (RowLaw); changes of float format and the order of the sums do not exist on the
  extended reals; and the precondition makes every entry real (Finite), the gathered entries being entries of the tables.
  The modules: RowLaw (the law), Spec (the two score arrays), RefRead (the reference is one), KernelOps / KernelPayload /
  KernelArray (the kernel's result array is the other), Finite (the precondition), Bridge (the two runs side by side).
  The three frames are the generated runs; the idealization rewrote nothing, so `preserves` has nothing to state.
-/
import proofs.«102745_j75720273429289_2_alg».proof.Defs
import proofs.«102745_j75720273429289_2_alg».proof.Proof.Gen.Kernel
import proofs.«102745_j75720273429289_2_alg».proof.Proof.Gen.Kernel.Skeleton
import proofs.«102745_j75720273429289_2_alg».proof.Proof.Gen.Kernel.Launch
import proofs.«102745_j75720273429289_2_alg».proof.Proof.Gen.Kernel.Points
import proofs.«102745_j75720273429289_2_alg».proof.Proof.Gen.Kernel.Frame
import proofs.«102745_j75720273429289_2_alg».proof.Proof.Gen.KernelIdeal
import proofs.«102745_j75720273429289_2_alg».proof.Proof.Gen.KernelIdeal.Skeleton
import proofs.«102745_j75720273429289_2_alg».proof.Proof.Gen.KernelIdeal.Launch
import proofs.«102745_j75720273429289_2_alg».proof.Proof.Gen.KernelIdeal.Points
import proofs.«102745_j75720273429289_2_alg».proof.Proof.Gen.KernelIdeal.Frame
import proofs.«102745_j75720273429289_2_alg».proof.Proof.Gen.ReferenceIdeal
import proofs.«102745_j75720273429289_2_alg».proof.Proof.Gen.Pre_finite_inputs
import proofs.«102745_j75720273429289_2_alg».proof.Proof.Gen.KernelIdeal.Value
import proofs.«102745_j75720273429289_2_alg».proof.Proof.Gen.ReferenceIdeal.Run
import proofs.«102745_j75720273429289_2_alg».proof.Proof.Gen.ReferenceIdeal.Read
import proofs.«102745_j75720273429289_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.RouteDist.Bridge.algebraic⟩

end Cert.Proof

end
